-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x8192x768 .f32) (main_arg1 : FVec F S8192x768 .f32) (main_arg2 : FVec F S768 .f32) (main_arg3 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x8192x768 : Shape := ⟨3, ![4, 8192, 768]⟩
abbrev S8192x768 : Shape := ⟨2, ![8192, 768]⟩
abbrev S768 : Shape := ⟨1, ![768]⟩
abbrev S32768x768 : Shape := ⟨2, ![32768, 768]⟩
abbrev S1x768 : Shape := ⟨2, ![1, 768]⟩
abbrev S2048x768 : Shape := ⟨2, ![2048, 768]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S32768x768, .f32⟩
  | .hbm, ⟨5, _⟩ => ⟨S1x768, .f32⟩
  | .hbm, ⟨6, _⟩ => ⟨S1x768, .f32⟩
  | .hbm, ⟨7, _⟩ => ⟨S32768x768, .f32⟩
  | .hbm, ⟨8, _⟩ => ⟨S4x8192x768, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S1x768, .f32⟩
  | .local _ .vmem, ⟨5, _⟩ => ⟨S1x768, .f32⟩
  | .local _ .vmem, ⟨6, _⟩ => ⟨S2048x768, .f32⟩
  | .local _ .vmem, ⟨7, _⟩ => ⟨S2048x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x8192x768_S32768x768 : S4x8192x768.ShapeCasts S32768x768
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  reduces_S2048x768_S2048 : S2048x768.Reduces [1] S2048
  shapeCasts_S2048_S2048x1 : S2048.ShapeCasts S2048x1
  broadcasts_S2048x1_S2048x768 : S2048x1.Broadcasts S2048x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  shapeCasts_S32768x768_S4x8192x768 : S32768x768.ShapeCasts S4x8192x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S8192x768.size a
  hwx0_1 : ∀ i : grid0.Coords, EltTy.bits .f32 = 32 ∨ (Rect.block (s := S8192x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x768.size a ≤ S32768x768.size a
  hwx0_4 : ∀ i : grid0.Coords, EltTy.bits .f32 = 32 ∨ (Rect.block (s := S32768x768) S2048x768.size (cc0_transform_4 i) (hinb0_4 i)).WholeWords (EltTy.packing .f32)

variable [Facts₀]

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S768 : Shape := ⟨1, ![768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩
abbrev S4x8192 : Shape := ⟨2, ![4, 8192]⟩
abbrev S4x8192x1 : Shape := ⟨3, ![4, 8192, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x768, .f32⟩
  | .hbm, ⟨24, _⟩ => ⟨S8192x768, .i1⟩
  | .hbm, ⟨25, _⟩ => ⟨S_, .f32⟩
  | .hbm, ⟨26, _⟩ => ⟨S8192x768, .f32⟩
  | .hbm, ⟨27, _⟩ => ⟨S8192x768, .f32⟩
  | .hbm, ⟨28, _⟩ => ⟨S1x8192x768, .f32⟩
  | .hbm, ⟨29, _⟩ => ⟨S4x8192x768, .f32⟩
  | .hbm, ⟨30, _⟩ => ⟨S4x8192x768, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x768, .f32⟩
  | .hbm, ⟨38, _⟩ => ⟨S4x8192x768, .f32⟩
  | .hbm, ⟨39, _⟩ => ⟨S4x8192x768, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x768, .f32⟩
  | .hbm, ⟨47, _⟩ => ⟨S4x8192x768, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x768, .f32⟩
  | .hbm, ⟨53, _⟩ => ⟨S4x8192x768, .f32⟩
  | .hbm, ⟨54, _⟩ => ⟨S1x1x768, .f32⟩
  | .hbm, ⟨55, _⟩ => ⟨S4x8192x768, .f32⟩
  | .hbm, ⟨56, _⟩ => ⟨S4x8192x768, .f32⟩
  | .hbm, ⟨57, _⟩ => ⟨S1x1x768, .f32⟩
  | .hbm, ⟨58, _⟩ => ⟨S4x8192x768, .f32⟩
  | .hbm, ⟨59, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x768_0 : S8192.BroadcastsInDim S8192x768 (![0] : Fin 1 → Fin S8192x768.rank)
  bcast_S_S8192x768 : S_.BroadcastsInDim S8192x768 (![] : Fin 0 → Fin S8192x768.rank)
  bcast_S8192x768_S1x8192x768_1_2 : S8192x768.BroadcastsInDim S1x8192x768 (![1, 2] : Fin 2 → Fin S1x8192x768.rank)
  bcast_S1x8192x768_S4x8192x768_0_1_2 : S1x8192x768.BroadcastsInDim S4x8192x768 (![0, 1, 2] : Fin 3 → Fin S4x8192x768.rank)
  reducesTo_S4x8192x768_S4x8192_d2 : S4x8192x768.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S8192x768_S8192x1_S8192x768_1_0_n_n_0_1_1768_wf : GatherDims.WF S8192x768 S8192x1 S8192x768 [1] [0] [] [0] [] 1 ![1, 768]

variable [Facts₀]

def gather_S8192x768_S8192x1_S8192x768_1_0_n_n_0_1_1768 : GatherDims S8192x768 S8192x1 S8192x768 where
  offsetDims := [1]
  collapsedSliceDims := [0]
  operandBatchingDims := []
  startIndicesBatchingDims := []
  startIndexMap := [0]
  indexVectorDim := 1
  sliceSizes := ![1, 768]
  wf := gather_S8192x768_S8192x1_S8192x768_1_0_n_n_0_1_1768_wf

class Facts : Prop extends Facts₀ where

variable [Facts]
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibSoftmaxRow.lean ====
/-
  A row-wise softmax over a matrix [a, b] of extended reals, in the form a vector unit computes it, read at one entry.

  The row maximum is a maximum-reduction over axis 1 into a vector [a], re-laid as a column [a, 1] and spread back over
  [a, b]; it is subtracted, the exponential taken, the exponentials summed over axis 1 by an add-reduction treated the
  same way, and the quotient formed. Because max and + on the extended reals commute and associate, each reduction at
  row r is the fold (the sum) over the row's entries, whatever order it visits them in. So entry (r, k) of the result is
      exp(s(r,k) - M_r) / sum_k' exp(s(r,k') - M_r),      M_r the maximum of row r folded from the accumulator's value.
-/
import Idealize.ShloMosaic.Lib.ValueIdx
import Idealize.ShloMosaic.Lib.Pipeline.Value
import Idealize.ShloMosaic.PureOps.Ideal.Laws
import Idealize.ShloMosaic.PureOps.Reduce
import proofs.«123548_g18691697672695_cont_sun_m_1329_18_alg».proof.Proof.LibColumn

noncomputable section

namespace Cert.LibSoftmaxRow

open Idealize.ShloMosaic Idealize.ShloMosaic.ValueIdx
open scoped BigOperators

set_option backward.isDefEq.respectTransparency.types false in
/-- Over row `r` of the reduced vector, inserting coordinate `k` on the reduced axis 1 gives the matrix index (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  rw [h.lift_val]
  match c with
  | ⟨0, _⟩ => rfl
  | ⟨1, _⟩ => rfl

/-- A maximum-reduction over axis 1, at row `r`: the fold of max from the accumulator's value over the row's entries. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => (Finset.univ : Finset (Fin b)).fold max (Ideal.ofBits .f32 acc) f)
    (funext fun k => congrArg src (lift_row h r k))

/-- An add-reduction over axis 1, at row `r`: the sum of the row's entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- The row softmax, as computed with the reduced axis kept as a unit column, read at entry (r, k). -/
theorem softmaxRow_apply {a b : ℕ} (s : FVec Ideal ⟨2, ![a, b]⟩ .f32) (accM accA : BitVec 32)
    (h : (⟨2, ![a, b]⟩ : Shape).Reduces [1] ⟨1, ![a]⟩) (hφ hφ' : FKind.Formats .f32)
    (haccM : accM = FKind.maximumf.neutral .f32 hφ) (haccA : accA = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩ (multiReduction .maximumf [1] ⟨1, ![a]⟩ s accM h hφ haccM) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s accM h hφ haccM) hc) hb)))
          accA h hφ' haccA) hc) hb) (ix2 r k)
      = Ideal.div
          (Ideal.exp (s (ix2 r k) - (Finset.univ : Finset (Fin b)).fold max (Ideal.ofBits .f32 accM) (fun k' => s (ix2 r k'))))
          (∑ k' : Fin b, Ideal.exp (s (ix2 r k') - (Finset.univ : Finset (Fin b)).fold max (Ideal.ofBits .f32 accM) (fun k'' => s (ix2 r k'')))) := by
  have hM : ∀ k' : Fin b,
      broadcastTo ⟨2, ![a, b]⟩ (shapeCast ⟨2, ![a, 1]⟩ (multiReduction .maximumf [1] ⟨1, ![a]⟩ s accM h hφ haccM) hc) hb (ix2 r k')
        = (Finset.univ : Finset (Fin b)).fold max (Ideal.ofBits .f32 accM) (fun k'' => s (ix2 r k'')) := fun k' =>
    (Cert.LibColumn.broadcastTo_a1_ab_apply _ hb r k').trans
      ((Cert.LibColumn.shapeCast_a_a1_apply _ hc r 0).trans (rowMax_apply s accM h hφ haccM r))
  have hE : ∀ k' : Fin b,
      exp (subf s (broadcastTo ⟨2, ![a, b]⟩ (shapeCast ⟨2, ![a, 1]⟩ (multiReduction .maximumf [1] ⟨1, ![a]⟩ s accM h hφ haccM) hc) hb)) (ix2 r k')
        = Ideal.exp (s (ix2 r k') - (Finset.univ : Finset (Fin b)).fold max (Ideal.ofBits .f32 accM) (fun k'' => s (ix2 r k''))) := fun k' =>
    congrArg (fun m => Ideal.exp (s (ix2 r k') - m)) (hM k')
  refine (congrArg₂ Ideal.div (hE k) ?_ : _)
  refine (Cert.LibColumn.broadcastTo_a1_ab_apply _ hb r k).trans ((Cert.LibColumn.shapeCast_a_a1_apply _ hc r 0).trans ?_)
  refine (rowSum_apply _ accA h hφ' haccA r).trans ?_
  exact Finset.sum_congr rfl fun k' _ => hE k'

end Cert.LibSoftmaxRow

end
-- ==== Proof.LayerNormRow.lean ====
/-
  Layer normalisation of one row of 768 extended reals, in the two spellings that occur.

  For a row e : Fin 768 → EReal write  mean e = (Σ_k e k) / 768,  dev e h = e h - mean e,
  var e = (Σ_k (dev e k)²) / 768.  One spelling scales the deviation by the reciprocal square root,
      g · (dev e h · rsqrt (var e + ε)) + b,
  the other divides it by the square root,
      g · (dev e h / sqrt (var e + ε)) + b.
  On the extended reals a square is never negative, so var e ≥ 0 and, ε being a positive real, var e + ε is a
  positive real or +∞. There  d · rsqrt y = d / sqrt y  for every extended real d: for real y > 0 both are
  d · (√y)⁻¹, and at y = +∞ both are d · 0. Hence the two spellings agree on every row, finite or not.
-/
import Idealize.ShloMosaic.PureOps.Ideal
import Idealize.ShloMosaic.PureOps.Ideal.Laws

noncomputable section

namespace Cert.LayerNormRow

open Idealize.ShloMosaic
open scoped BigOperators

/-- The row length as the float `768.0`. -/
def width : EReal := Ideal.ofBits .f32 0x44400000#32

/-- The float nearest `1e-12`. -/
def eps : EReal := Ideal.ofBits .f32 0x2B8CBCCC#32

theorem width_eq : width = ((768 : ℝ) : EReal) := by
  unfold width
  simp [Ideal.ofBits, Ideal.ieee, -EReal.coe_mul]; norm_num

theorem eps_pos : 0 < eps := by
  unfold eps
  simp [Ideal.ofBits, Ideal.ieee, -EReal.coe_mul]

/-- The mean of a row. -/
def mean (e : Fin 768 → EReal) : EReal := Ideal.div (∑ k : Fin 768, e k) width

/-- An entry's deviation from the row's mean. -/
def dev (e : Fin 768 → EReal) (h : Fin 768) : EReal := e h - mean e

/-- The mean of the squared deviations. -/
def var (e : Fin 768 → EReal) : EReal := Ideal.div (∑ k : Fin 768, dev e k * dev e k) width

/-- The normalised entry, scaled and shifted: the deviation times the reciprocal square root. -/
def byRsqrt (e : Fin 768 → EReal) (g b : EReal) (h : Fin 768) : EReal :=
  g * (dev e h * Ideal.rsqrt (var e + eps)) + b

/-- The normalised entry, scaled and shifted: the deviation divided by the square root. -/
def bySqrt (e : Fin 768 → EReal) (g b : EReal) (h : Fin 768) : EReal :=
  g * Ideal.div (dev e h) (Ideal.sqrt (var e + eps)) + b

/-- The normalised entry depends on the row, the scale and the shift only through their values. -/
theorem byRsqrt_congr {e e' : Fin 768 → EReal} {g g' b b' : EReal} {h : Fin 768} (he : ∀ k, e k = e' k) (hg : g = g')
    (hb : b = b') : byRsqrt e g b h = byRsqrt e' g' b' h := by
  rw [show e = e' from funext he, hg, hb]

theorem bySqrt_congr {e e' : Fin 768 → EReal} {g g' b b' : EReal} {h : Fin 768} (he : ∀ k, e k = e' k) (hg : g = g')
    (hb : b = b') : bySqrt e g b h = bySqrt e' g' b' h := by
  rw [show e = e' from funext he, hg, hb]

/-- A square of an extended real is not negative. -/
theorem square_nonneg (d : EReal) : 0 ≤ d * d := by
  induction d using EReal.rec with
  | bot => simp
  | top => simp
  | coe r => rw [← EReal.coe_mul]; exact EReal.coe_nonneg.mpr (_root_.mul_self_nonneg r)

theorem var_nonneg (e : Fin 768 → EReal) : 0 ≤ var e := by
  unfold var Ideal.div
  rw [width_eq]
  rw [if_neg (by norm_num)]
  refine mul_nonneg (Finset.sum_nonneg fun k _ => square_nonneg _) ?_
  rw [← EReal.coe_inv]
  exact EReal.coe_nonneg.mpr (by norm_num)

theorem var_add_eps_pos (e : Fin 768 → EReal) : 0 < var e + eps := by
  rw [add_comm]
  exact EReal.add_pos_of_pos_of_nonneg eps_pos (var_nonneg e)

/-- At a positive extended real, scaling by the reciprocal square root is dividing by the square root. -/
theorem mul_rsqrt_eq_div_sqrt (d y : EReal) (hy : 0 < y) : d * Ideal.rsqrt y = Ideal.div d (Ideal.sqrt y) := by
  induction y using EReal.rec with
  | bot => exact absurd hy (by simp)
  | top => rw [Ideal.rsqrt_top, Ideal.sqrt_top, Ideal.div, if_neg (by simp), EReal.inv_top]
  | coe r =>
    have hr : 0 < r := EReal.coe_pos.mp hy
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-- The two spellings agree on every row. -/
theorem byRsqrt_eq_bySqrt (e : Fin 768 → EReal) (g b : EReal) (h : Fin 768) : byRsqrt e g b h = bySqrt e g b h := by
  unfold byRsqrt bySqrt
  rw [mul_rsqrt_eq_div_sqrt _ _ (var_add_eps_pos e)]

end Cert.LayerNormRow

end
-- ==== Proof.KernelRow.lean ====
/-
  What the kernel body stores, read at one entry.

  The body adds the two loaded blocks e = x₀ + x₁ (2048 rows of 768), takes each row's sum by an add-reduction over
  axis 1, re-lays the sums as a column, divides by 768.0 and spreads the column back: the row's mean. It subtracts, squares,
  reduces again the same way, adds ε, takes the reciprocal square root, and forms γ · (deviation · rsqrt) + β with γ and β
  one row of 768 spread over the 2048 rows. Every step is a re-indexing or a pointwise operation except the two row
  sums, so entry (p, q) of the stored block is the layer norm of row p of e at column q, in the reciprocal-square-root
  spelling.
-/
import Idealize.ShloMosaic.Lib.ValueIdx
import Idealize.ShloMosaic.Lib.ValueLayout
import Idealize.ShloMosaic.Lib.Pipeline.Value
import Idealize.ShloMosaic.PureOps.Ideal.Laws
import proofs.«123548_g18691697672695_cont_sun_m_1329_18_alg».proof.Proof.Gen.KernelIdeal.Skeleton
import proofs.«123548_g18691697672695_cont_sun_m_1329_18_alg».proof.Proof.LibColumn
import proofs.«123548_g18691697672695_cont_sun_m_1329_18_alg».proof.Proof.LibSoftmaxRow
import proofs.«123548_g18691697672695_cont_sun_m_1329_18_alg».proof.Proof.LayerNormRow

noncomputable section

namespace Cert.KernelIdeal.RowValue

open Cert.KernelIdeal Cert.KernelIdeal.Gen Idealize.ShloMosaic Idealize.ShloMosaic.ValueIdx
open scoped BigOperators

/-- The sum of the two loaded blocks. -/
def e (x0 x1 : Vec Ideal S2048x768 .f32) : FVec Ideal S2048x768 .f32 :=
  addf (shapeCast S2048x768 x0 shapeCasts_S2048x768_S2048x768) x1

/-- A block's row sums over 768.0, as a column. -/
def colMean (src : FVec Ideal S2048x768 .f32) : FVec Ideal S2048x1 .f32 :=
  divf (shapeCast S2048x1 (multiReduction .add [1] S2048 src 0x00000000#32 reduces_S2048x768_S2048 (.inl rfl) rfl) shapeCasts_S2048_S2048x1)
    (broadcast S2048x1 (Scalar.ofBits .f32 0x44400000#32))

/-- Each entry's deviation from its row's mean. -/
def d (x0 x1 : Vec Ideal S2048x768 .f32) : FVec Ideal S2048x768 .f32 :=
  subf (e x0 x1) (broadcastTo S2048x768 (colMean (e x0 x1)) broadcasts_S2048x1_S2048x768)

/-- The stored block, spelt over those pieces. -/
def stored (x0 x1 : Vec Ideal S2048x768 .f32) (x2 x3 : Vec Ideal S1x768 .f32) : FVec Ideal S2048x768 .f32 :=
  addf
    (mulf (broadcastTo S2048x768 (shapeCast S1x768 x2 shapeCasts_S1x768_S1x768) broadcasts_S1x768_S2048x768)
      (mulf (d x0 x1)
        (broadcastTo S2048x768
          (rsqrt (addf (colMean (mulf (d x0 x1) (d x0 x1))) (broadcast S2048x1 (Scalar.ofBits .f32 0x2B8CBCCC#32))))
          broadcasts_S2048x1_S2048x768)))
    (broadcastTo S2048x768 (shapeCast S1x768 x3 shapeCasts_S1x768_S1x768) broadcasts_S1x768_S2048x768)

/-- The body's stored value is that spelling. -/
theorem pay_eq (x0 x1 : Vec Ideal S2048x768 .f32) (x2 x3 : Vec Ideal S1x768 .f32) :
    k0_pay1 x0 x1 x2 x3 = stored x0 x1 x2 x3 := rfl

theorem e_apply (x0 x1 : Vec Ideal S2048x768 .f32) (p : Fin 2048) (k : Fin 768) :
    e x0 x1 (ix2 p k) = x0 (ix2 p k) + x1 (ix2 p k) := by
  unfold e
  rw [shapeCast_self]
  rfl

/-- The column of row means at row `p`: the row's sum over 768.0. -/
theorem colMean_apply (src : FVec Ideal S2048x768 .f32) (p : Fin 2048) (u : Fin 1) :
    colMean src (ix2 p u) = Ideal.div (∑ k : Fin 768, src (ix2 p k)) Cert.LayerNormRow.width := by
  unfold colMean
  refine congrArg (fun s => Ideal.div s Cert.LayerNormRow.width) ?_
  exact (Cert.LibColumn.shapeCast_a_a1_apply _ _ p u).trans (Cert.LibSoftmaxRow.rowSum_apply src _ _ _ _ p)

theorem d_apply (x0 x1 : Vec Ideal S2048x768 .f32) (p : Fin 2048) (q : Fin 768) :
    d x0 x1 (ix2 p q) = Cert.LayerNormRow.dev (fun k : Fin 768 => x0 (ix2 p k) + x1 (ix2 p k)) q := by
  unfold d Cert.LayerNormRow.dev Cert.LayerNormRow.mean
  show e x0 x1 (ix2 p q) - broadcastTo S2048x768 (colMean (e x0 x1)) broadcasts_S2048x1_S2048x768 (ix2 p q) = _
  rw [Cert.LibColumn.broadcastTo_a1_ab_apply, colMean_apply, e_apply]
  simp only [e_apply]

theorem stored_apply (x0 x1 : Vec Ideal S2048x768 .f32) (x2 x3 : Vec Ideal S1x768 .f32) (p : Fin 2048) (q : Fin 768) :
    stored x0 x1 x2 x3 (ix2 p q)
      = Cert.LayerNormRow.byRsqrt (fun k : Fin 768 => x0 (ix2 p k) + x1 (ix2 p k)) (x2 (ix2 (0 : Fin 1) q)) (x3 (ix2 (0 : Fin 1) q)) q := by
  unfold stored Cert.LayerNormRow.byRsqrt Cert.LayerNormRow.var
  show broadcastTo S2048x768 (shapeCast S1x768 x2 shapeCasts_S1x768_S1x768) broadcasts_S1x768_S2048x768 (ix2 p q)
      * (d x0 x1 (ix2 p q)
        * broadcastTo S2048x768
            (rsqrt (addf (colMean (mulf (d x0 x1) (d x0 x1))) (broadcast S2048x1 (Scalar.ofBits .f32 0x2B8CBCCC#32))))
            broadcasts_S2048x1_S2048x768 (ix2 p q))
      + broadcastTo S2048x768 (shapeCast S1x768 x3 shapeCasts_S1x768_S1x768) broadcasts_S1x768_S2048x768 (ix2 p q) = _
  rw [broadcastTo_1b_ab_apply, broadcastTo_1b_ab_apply, Cert.LibColumn.broadcastTo_a1_ab_apply, shapeCast_self, shapeCast_self, d_apply]
  show _ * (_ * Ideal.rsqrt (colMean (mulf (d x0 x1) (d x0 x1)) (ix2 p (0 : Fin 1)) + Cert.LayerNormRow.eps)) + _ = _
  rw [colMean_apply]
  have hsq : ∀ k : Fin 768, mulf (d x0 x1) (d x0 x1) (ix2 p k)
      = Cert.LayerNormRow.dev (fun k : Fin 768 => x0 (ix2 p k) + x1 (ix2 p k)) k
        * Cert.LayerNormRow.dev (fun k : Fin 768 => x0 (ix2 p k) + x1 (ix2 p k)) k := fun k => by
    show d x0 x1 (ix2 p k) * d x0 x1 (ix2 p k) = _
    rw [d_apply]
  simp only [hsq]

/-- Entry (p, q) of what the body stores: the layer norm of row `p` of the summed blocks at column `q`, scaled by γ's and
    shifted by β's entry at `q`. -/
theorem payload_apply (x0 x1 : Vec Ideal S2048x768 .f32) (x2 x3 : Vec Ideal S1x768 .f32) (p : Fin 2048) (q : Fin 768) :
    k0_pay1 x0 x1 x2 x3 (ix2 p q)
      = Cert.LayerNormRow.byRsqrt (fun k : Fin 768 => x0 (ix2 p k) + x1 (ix2 p k)) (x2 (ix2 (0 : Fin 1) q)) (x3 (ix2 (0 : Fin 1) q)) q := by
  rw [pay_eq]
  exact stored_apply x0 x1 x2 x3 p q

end Cert.KernelIdeal.RowValue

end
-- ==== Proof.KernelBlocks.lean ====
/-
  The output array of the kernel's one region, as one function of the arrays the region reads.

  The output and the first operand are arrays of 32768 rows of 768, cut into 16 blocks of 2048 rows; grid point (i, b)
  works on block 4·b + i of both, on block i of the second operand (8192 rows: the positions), and on the one block of the
  two 1 × 768 operands. Row r of block 4·b + i lies at flattened row (4·b + i)·2048 + r, whose remainder modulo 8192 is
  i·2048 + r: the row of the second operand the same point loads. So what a point writes back is the block of ONE
  function of the whole arrays — at flattened row R and column q, the layer norm of the row X[R, ·] + P[R mod 8192, ·]
  at q — and the sixteen blocks tile the array: after the region the output array is that function.
-/
import proofs.«123548_g18691697672695_cont_sun_m_1329_18_alg».proof.Proof.Gen.KernelIdeal.Frame
import Idealize.ShloMosaic.Lib.Pipeline.Value
import proofs.«123548_g18691697672695_cont_sun_m_1329_18_alg».proof.Proof.KernelRow

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The position a flattened (batch, position) row belongs to. -/
def posRow (r : Fin 32768) : Fin 8192 := ⟨r.val % 8192, Nat.mod_lt _ (by norm_num)⟩

/-- The output array as one function of the arrays the region reads: at flattened row `R` and column `q` the layer norm
    of the row `X[R, ·] + P[R mod 8192, ·]` at `q`, scaled and shifted by the two one-row operands at `q`. -/
def rows (X : FVec Ideal S32768x768 .f32) (P : FVec Ideal S8192x768 .f32) (Gm Bt : FVec Ideal S1x768 .f32) :
    FVec Ideal S32768x768 .f32 := fun i =>
  Cert.LayerNormRow.byRsqrt (fun k : Fin 768 => X (ix2 (i 0) k) + P (ix2 (posRow (i 0)) k))
    (Gm (ix2 (0 : Fin 1) (i 1))) (Bt (ix2 (0 : Fin 1) (i 1))) (i 1)

theorem rows_apply (X : FVec Ideal S32768x768 .f32) (P : FVec Ideal S8192x768 .f32) (Gm Bt : FVec Ideal S1x768 .f32)
    (R : Fin 32768) (q : Fin 768) :
    rows X P Gm Bt (ix2 R q) = Cert.LayerNormRow.byRsqrt (fun k : Fin 768 => X (ix2 R k) + P (ix2 (posRow R) k))
      (Gm (ix2 (0 : Fin 1) q)) (Bt (ix2 (0 : Fin 1) q)) q := rfl

theorem hz : (![0, 0] : Fin 2 → Nat) = fun _ => 0 := funext fun a => by fin_cases a <;> rfl

/-- The printed index maps over the sixteen grid points: the first operand moves with the output; the positions' block
    is the output's block index modulo 4; the one-row operands stay; all second coordinates are 0. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2) % 4
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) < 16 ∧ win0_4.index t (1 : Fin 2) = 0 :=
  (by decide +kernel : ∀ t : Fin grid0.N, _)

/-- Every one of the sixteen row blocks is some point's. -/
theorem idx_onto : ∀ q0 : Fin 16, ∃ t : Fin cfg0.N, win0_4.index t (0 : Fin 2) = q0.val :=
  (by decide +kernel : ∀ q0 : Fin 16, ∃ t : Fin grid0.N, win0_4.index t (0 : Fin 2) = q0.val)

/-- What point `t` writes back is block `t` of `rows` of the arrays as the region finds them. -/
theorem flushed_eq (c : Dev nD) (t : Fin cfg0.N) :
    (dats m 0 c).flushed 4 t = ((cfg0.win 4).blk t).view.read (Elt Ideal)
      (rows (V m c main_v0) (V m c main_arg1) (V m c main_v1) (V m c main_v2)) := by
  show (cfg0.win 4).cut (grid0.coords t) ((dats m 0 c).after 4 t) = _
  rw [after0_4]
  unfold out0_4
  rw [View.canon_unit_zero hz]
  simp only [View.ld_unit_zero (S := S2048x768) hz, View.ld_unit_zero (S := S1x768) hz]
  obtain ⟨e00, e01, e10, e11, e20, e21, e30, e31, e40, e41⟩ := idx_facts t
  funext j
  obtain ⟨p, q, rfl⟩ : ∃ (p : Fin 2048) (q : Fin 768), j = ix2 p q := ⟨j 0, j 1, eq_ix2 j⟩
  show k0_pay1 (iblk m c 0 t) (iblk m c 1 t) (iblk m c 2 t) (iblk m c 3 t) (ix2 p q)
    = rows (V m c main_v0) (V m c main_arg1) (V m c main_v1) (V m c main_v2) (((cfg0.win 4).blk t).view.emb (ix2 p q))
  refine (Cert.KernelIdeal.RowValue.payload_apply (iblk m c 0 t) (iblk m c 1 t) (iblk m c 2 t) (iblk m c 3 t) p q).trans ?_
  have hp : p.val < 2048 := p.isLt
  have hq : q.val < 768 := q.isLt
  have hR : win0_4.index t (0 : Fin 2) * 2048 + p.val < 32768 := by omega
  have emb4 : ((cfg0.win 4).blk t).view.emb (ix2 p q) = ix2 (⟨win0_4.index t (0 : Fin 2) * 2048 + p.val, hR⟩ : Fin 32768) q := by
    funext a; apply Fin.ext
    match a with
    | ⟨0, _⟩ => show win0_4.index t (0 : Fin 2) * 2048 + 1 * p.val = win0_4.index t (0 : Fin 2) * 2048 + p.val; omega
    | ⟨1, _⟩ => show win0_4.index t (1 : Fin 2) * 768 + 1 * q.val = q.val; omega
  rw [emb4, rows_apply]
  have h0 : ∀ k : Fin 768, iblk m c 0 t (ix2 p k)
      = V m c main_v0 (ix2 (⟨win0_4.index t (0 : Fin 2) * 2048 + p.val, hR⟩ : Fin 32768) k) := fun k => by
    show V m c main_v0 (((cfg0.win 0).blk t).view.emb (ix2 p k)) = _
    refine congrArg (V m c main_v0) ?_
    funext a; apply Fin.ext
    have hk : k.val < 768 := k.isLt
    match a with
    | ⟨0, _⟩ => show win0_0.index t (0 : Fin 2) * 2048 + 1 * p.val = win0_4.index t (0 : Fin 2) * 2048 + p.val; omega
    | ⟨1, _⟩ => show win0_0.index t (1 : Fin 2) * 768 + 1 * k.val = k.val; omega
  have h1 : ∀ k : Fin 768, iblk m c 1 t (ix2 p k)
      = V m c main_arg1 (ix2 (posRow (⟨win0_4.index t (0 : Fin 2) * 2048 + p.val, hR⟩ : Fin 32768)) k) := fun k => by
    show V m c main_arg1 (((cfg0.win 1).blk t).view.emb (ix2 p k)) = _
    refine congrArg (V m c main_arg1) ?_
    funext a; apply Fin.ext
    have hk : k.val < 768 := k.isLt
    match a with
    | ⟨0, _⟩ => show win0_1.index t (0 : Fin 2) * 2048 + 1 * p.val = (win0_4.index t (0 : Fin 2) * 2048 + p.val) % 8192; omega
    | ⟨1, _⟩ => show win0_1.index t (1 : Fin 2) * 768 + 1 * k.val = k.val; omega
  have h2 : iblk m c 2 t (ix2 (0 : Fin 1) q) = V m c main_v1 (ix2 (0 : Fin 1) q) := by
    show V m c main_v1 (((cfg0.win 2).blk t).view.emb (ix2 (0 : Fin 1) q)) = _
    refine congrArg (V m c main_v1) ?_
    funext a; apply Fin.ext
    match a with
    | ⟨0, _⟩ => show win0_2.index t (0 : Fin 2) * 1 + 1 * 0 = 0; omega
    | ⟨1, _⟩ => show win0_2.index t (1 : Fin 2) * 768 + 1 * q.val = q.val; omega
  have h3 : iblk m c 3 t (ix2 (0 : Fin 1) q) = V m c main_v2 (ix2 (0 : Fin 1) q) := by
    show V m c main_v2 (((cfg0.win 3).blk t).view.emb (ix2 (0 : Fin 1) q)) = _
    refine congrArg (V m c main_v2) ?_
    funext a; apply Fin.ext
    match a with
    | ⟨0, _⟩ => show win0_3.index t (0 : Fin 2) * 1 + 1 * 0 = 0; omega
    | ⟨1, _⟩ => show win0_3.index t (1 : Fin 2) * 768 + 1 * q.val = q.val; omega
  exact Cert.LayerNormRow.byRsqrt_congr (fun k => congrArg₂ (fun a b : EReal => a + b) (h0 k) (h1 k)) h2 h3

/-- An index of the array is in point `t`'s block iff each coordinate is in the block's range on its axis. -/
theorem mem_blk (t : Fin cfg0.N) (i : S32768x768.Idx) :
    i ∈ ((cfg0.win 4).blk t).view.set ↔ ∀ a : Fin 2, win0_4.index t a * S2048x768.size a ≤ (i a).val
      ∧ (i a).val < win0_4.index t a * S2048x768.size a + S2048x768.size a := by
  show i ∈ ((View.whole main_v3).slice (win0_4.rect t)).set ↔ _
  rw [View.set_slice_whole, Rect.mem_set_unit]
  exact Iff.rfl

/-- The sixteen blocks cover the array: row `R` is in block `R / 2048`. -/
theorem cover (i : S32768x768.Idx) :
    ∃ t : Fin cfg0.N, (cfg0.win 4).flush t = true ∧ i ∈ ((cfg0.win 4).blk t).view.set := by
  have hi0 : (i 0).val < 32768 := (i 0).isLt
  have hi1 : (i 1).val < 768 := (i 1).isLt
  obtain ⟨t, ht⟩ := idx_onto ⟨(i 0).val / 2048, by omega⟩
  have ht' : win0_4.index t (0 : Fin 2) = (i 0).val / 2048 := ht
  obtain ⟨e00, e01, e10, e11, e20, e21, e30, e31, e40, e41⟩ := idx_facts t
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 768 ≤ (i 1).val ∧ (i 1).val < win0_4.index t (1 : Fin 2) * 768 + 768; omega

/-- The output array after the region. -/
theorem final (c : Dev nD) :
    (dats m 0 c).arrAt 4 cfg0.N = rows (V m c main_v0) (V m c main_arg1) (V m c main_v1) (V m c main_v2) :=
  (dats m 0 c).arrAt_eq_of_cover 4 _ (fun t _ => flushed_eq m c t) cover

end Cert.KernelIdeal.ArrayValue

end
-- ==== Proof.KernelHost.lean ====
/-
  The kernel program's result as one function of its four arguments.

  Around its one region the program re-lays arrays and does nothing else: before it, x [4, 8192, 768] becomes the
  32768 × 768 array the region's first operand is cut from, and γ, β [768] become single rows [1, 768]; after it the
  region's 32768 × 768 output is re-laid as [4, 8192, 768]. A re-laying keeps the row-major position, so (b, s, k) of x is
  entry (b·8192 + s, k) of the flattened array, and (b·8192 + s) mod 8192 = s is the position whose row the region adds.
  Hence entry (b, s, h) of the result is the layer norm of the row x[b, s, ·] + pos[s, ·] at h, scaled by γ[h] and
  shifted by β[h].
-/
import proofs.«123548_g18691697672695_cont_sun_m_1329_18_alg».proof.Proof.KernelBlocks
import Idealize.ShloMosaic.Lib.StableHlo.Run
import Idealize.ShloMosaic.Lib.ValueLayout

noncomputable section

namespace Cert.KernelIdeal.RunValue

open Cert.KernelIdeal Cert.KernelIdeal.Gen Idealize.ShloMosaic Idealize.ShloMosaic.TcCoe Idealize.SL.Sem
open Idealize.ShloMosaic.ValueIdx Cert.KernelIdeal.ArrayValue
open Idealize.ShloMosaic.Pipeline (Dat)

variable (m : (ℓ : Loc nD τ sig) → Buf (Elt Ideal) ℓ) (ρ : Dev nD → PrngReg)

/-- The region's first operand is x re-laid as 32768 rows. -/
theorem V_main_v0 (c : Dev nD) :
    (V m c main_v0 : S32768x768.Idx → EReal)
      = shapeCast S32768x768 (m ((c : Thread nD τ).loc main_arg0)) shapeCasts_S4x8192x768_S32768x768 := by
  show StableHlo.after hostOps0 (fun b => m (c, b)) (Proc.devRef .tc main_v0) = _
  after_results
  rfl

/-- The region's third operand is γ re-laid as one row. -/
theorem V_main_v1 (c : Dev nD) :
    (V m c main_v1 : S1x768.Idx → EReal) = shapeCast S1x768 (m ((c : Thread nD τ).loc main_arg2)) shapeCasts_S768_S1x768 := by
  show StableHlo.after hostOps0 (fun b => m (c, b)) (Proc.devRef .tc main_v1) = _
  after_results
  rfl

/-- The region's fourth operand is β re-laid as one row. -/
theorem V_main_v2 (c : Dev nD) :
    (V m c main_v2 : S1x768.Idx → EReal) = shapeCast S1x768 (m ((c : Thread nD τ).loc main_arg3)) shapeCasts_S768_S1x768 := by
  show StableHlo.after hostOps0 (fun b => m (c, b)) (Proc.devRef .tc main_v2) = _
  after_results
  rfl

/-- The program's result is the region's output array re-laid as [4, 8192, 768]. -/
theorem tail_eq (c : Dev nD) :
    (Pipeline.afterTail₀ cfgs (dats m) 0 (V0 m) [hostOps1] c main_v4 : S4x8192x768.Idx → EReal)
      = shapeCast S4x8192x768 ((dats m 0 c).arrAt 4 cfg0.N) shapeCasts_S32768x768_S4x8192x768 := by
  unfold Pipeline.afterTail₀
  show StableHlo.after hostOps1 _ (Proc.devRef .tc main_v4) = _
  after_results
  exact congrArg (fun A : S32768x768.Idx → EReal => shapeCast S4x8192x768 A shapeCasts_S32768x768_S4x8192x768)
    (Pipeline.withArrays_arr spec0 launch0.win.arr_inj c _ _ 4)

/-- The kernel program's result array as one function of its four argument arrays. -/
def result (x : FVec Ideal S4x8192x768 .f32) (pos : FVec Ideal S8192x768 .f32) (g bt : FVec Ideal S768 .f32) :
    FVec Ideal S4x8192x768 .f32 :=
  shapeCast S4x8192x768
    (rows (shapeCast S32768x768 x shapeCasts_S4x8192x768_S32768x768) pos (shapeCast S1x768 g shapeCasts_S768_S1x768)
      (shapeCast S1x768 bt shapeCasts_S768_S1x768))
    shapeCasts_S32768x768_S4x8192x768

/-- Entry (b, s, h) of the result: the layer norm of the row x[b, s, ·] + pos[s, ·] at h, scaled by γ[h], shifted by β[h]. -/
theorem result_apply (x : FVec Ideal S4x8192x768 .f32) (pos : FVec Ideal S8192x768 .f32) (g bt : FVec Ideal S768 .f32)
    (b : Fin 4) (s : Fin 8192) (h : Fin 768) :
    result x pos g bt (ix3 b s h)
      = Cert.LayerNormRow.byRsqrt (fun k : Fin 768 => x (ix3 b s k) + pos (ix2 s k)) (g (ix1 h)) (bt (ix1 h)) h := by
  have hb : b.val < 4 := b.isLt
  have hs : s.val < 8192 := s.isLt
  have hR : b.val * 8192 + s.val < 32768 := by omega
  unfold result
  rw [shapeCast_apply _ _ (ix3 b s h) (ix2 (⟨b.val * 8192 + s.val, hR⟩ : Fin 32768) h) (by
    rw [Shape.rowMajor_val_two, Shape.rowMajor_val_three]
    rfl)]
  rw [rows_apply]
  refine Cert.LayerNormRow.byRsqrt_congr (fun k => congrArg₂ (fun a b : EReal => a + b) ?_ ?_) ?_ ?_
  · exact shapeCast_apply x _ (ix2 (⟨b.val * 8192 + s.val, hR⟩ : Fin 32768) k) (ix3 b s k) (by
      rw [Shape.rowMajor_val_two, Shape.rowMajor_val_three]
      rfl)
  · refine congrArg (fun r : Fin 8192 => pos (ix2 r k)) (Fin.ext ?_)
    show (b.val * 8192 + s.val) % 8192 = s.val
    omega
  · exact shapeCast_a_1a_apply g _ 0 h
  · exact shapeCast_a_1a_apply bt _ 0 h

/-- The program's run with its result named: every weakly fair execution terminates with the result array at `result`
    of the argument arrays, and the arguments unchanged. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v4 (Pipeline.mem_restRefs_of main_v4 (by decide) (by decide))).trans
        ((tail_eq m c).trans (by rw [final, V_main_v0, V_main_v1, V_main_v2, V_main_arg1]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.ReferenceRun.lean ====
import proofs.«123548_g18691697672695_cont_sun_m_1329_18_alg».proof.Proof.Gen.ReferenceIdeal
import Idealize.ShloMosaic.Lib.StableHlo.Run
import Idealize.ShloMosaic.PureOps.Ideal

/-! # The reference program as a straight line of host operations, and its run

The reference's entry function calls a module-local gather-with-bounds function, which calls a select
function. Both calls are unfolded at their sites, giving one list of 56 host operations over literal
buffers. Every weakly fair execution then terminates with each buffer at the fold of the operations'
results over the launch contents; read at the result buffer that fold is the composed term `result`. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the two calls unfolded: the index vector; the gather function's
    twenty-three (index normalisation through the select function's one, bounds mask, row gather, masked
    select); then the embedding sum and the layer norm. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x768_S8192x1_S8192x768_1_0_n_n_0_1_1768 x i),
    TRef.unary main_call0.v12 main_call0.v14 (broadcastInDim S8192x768 ![0] bcast_S8192_S8192x768_0),
    TRef.nullary main_call0.cst (constant S_ .f32 0x7FC00000#32),
    TRef.unary main_call0.cst main_call0.v15 (broadcastInDim S8192x768 ![] bcast_S_S8192x768),
    TRef.ternary main_call0.v14 main_call0.v13 main_call0.v15 main_call0.v16 select,
    unary main_v1 main_v2 (broadcastInDim S1x8192x768 ![1, 2] bcast_S8192x768_S1x8192x768_1_2 : (⟨S8192x768, .f32⟩ : BufTy).Contents (Elt F) → (⟨S1x8192x768, .f32⟩ : BufTy).Contents (Elt F)),
    unary main_v2 main_v3 (broadcastInDim S4x8192x768 ![0, 1, 2] bcast_S1x8192x768_S4x8192x768_0_1_2 : (⟨S1x8192x768, .f32⟩ : BufTy).Contents (Elt F) → (⟨S4x8192x768, .f32⟩ : BufTy).Contents (Elt F)),
    binary main_v3 main_arg0 main_v4 (addf : (⟨S4x8192x768, .f32⟩ : BufTy).Contents (Elt F) → (⟨S4x8192x768, .f32⟩ : BufTy).Contents (Elt F) → (⟨S4x8192x768, .f32⟩ : BufTy).Contents (Elt F)),
    nullary main_cst (constant S_ .f32 0x00000000#32),
    binary main_v4 main_cst main_v5 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44400000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v9 main_v10 (subf : (⟨S4x8192x768, .f32⟩ : BufTy).Contents (Elt F) → (⟨S4x8192x768, .f32⟩ : BufTy).Contents (Elt F) → (⟨S4x8192x768, .f32⟩ : BufTy).Contents (Elt F)),
    binary main_v10 main_v10 main_v11 (mulf : (⟨S4x8192x768, .f32⟩ : BufTy).Contents (Elt F) → (⟨S4x8192x768, .f32⟩ : BufTy).Contents (Elt F) → (⟨S4x8192x768, .f32⟩ : BufTy).Contents (Elt F)),
    nullary main_cst_1 (constant S_ .f32 0x00000000#32),
    binary main_v11 main_cst_1 main_v12 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44400000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v16 main_v17 (subf : (⟨S4x8192x768, .f32⟩ : BufTy).Contents (Elt F) → (⟨S4x8192x768, .f32⟩ : BufTy).Contents (Elt F) → (⟨S4x8192x768, .f32⟩ : BufTy).Contents (Elt F)),
    nullary main_cst_3 (constant S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v17 main_v21 main_v22 (Host.divf : (⟨S4x8192x768, .f32⟩ : BufTy).Contents (Elt F) → (⟨S4x8192x768, .f32⟩ : BufTy).Contents (Elt F) → (⟨S4x8192x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v24 main_v22 main_v25 (mulf : (⟨S4x8192x768, .f32⟩ : BufTy).Contents (Elt F) → (⟨S4x8192x768, .f32⟩ : BufTy).Contents (Elt F) → (⟨S4x8192x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v25 main_v27 main_v28 (addf : (⟨S4x8192x768, .f32⟩ : BufTy).Contents (Elt F) → (⟨S4x8192x768, .f32⟩ : BufTy).Contents (Elt F) → (⟨S4x8192x768, .f32⟩ : BufTy).Contents (Elt F)) ]

set_option maxRecDepth 2048 in
/-- The entry function is that straight line: the functions' definitions unfolded at their calls, both sides
    are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The composed term -/

/-- The index vector `0, 1, …, 8191`. -/
def rowIdx : IVec S8192 32 := iotaInDim S8192 32 0

/-- The gather function's start indices of an index vector, as a column: a negative index is moved up by the
    row count, any other kept. -/
def startIdx (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- The gather function's mask: one where the start index lies in `0 … 8191`. -/
def inRange (i : IVec S8192 32) : IVec S8192 1 :=
  Host.reduce IntOp.andi
    (andi (cmpi .sge (startIdx i) (broadcastInDim S8192x1 ![] bcast_S_S8192x1 (constantI S_ 32 0#32)))
      (cmpi .sle (startIdx i) (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The gather function: row `i r` of the table at row `r` where that index is in range, the quiet NaN elsewhere. -/
def take (p : FVec F S8192x768 .f32) (i : IVec S8192 32) : FVec F S8192x768 .f32 :=
  select (broadcastInDim S8192x768 ![0] bcast_S8192_S8192x768_0 (inRange i))
    (Host.gather gather_S8192x768_S8192x1_S8192x768_1_0_n_n_0_1_1768 p (startIdx i))
    (broadcastInDim S8192x768 ![] bcast_S_S8192x768 (constant S_ .f32 0x7FC00000#32))

/-- The embedding sum: the gathered table, repeated over the batch, plus the input. -/
def emb (x : FVec F S4x8192x768 .f32) (p : FVec F S8192x768 .f32) : FVec F S4x8192x768 .f32 :=
  addf (broadcastInDim S4x8192x768 ![0, 1, 2] bcast_S1x8192x768_S4x8192x768_0_1_2
    (broadcastInDim S1x8192x768 ![1, 2] bcast_S8192x768_S1x8192x768_1_2 (take p rowIdx))) x

/-- Each row's sum over the last axis (from the float zero) divided by the float 768, kept as a unit last axis. -/
def rowMean (e : FVec F S4x8192x768 .f32) : FVec F S4x8192x1 .f32 :=
  Host.divf
    (broadcastInDim S4x8192x1 ![0, 1] bcast_S4x8192_S4x8192x1_0_1
      (Host.reduceAdd e (constant S_ .f32 0x00000000#32) reducesTo_S4x8192x768_S4x8192_d2 h_S_))
    (broadcastInDim S4x8192x1 ![] bcast_S_S4x8192x1 (constant S_ .f32 0x44400000#32))

/-- Each entry minus its row's mean. -/
def centred (e : FVec F S4x8192x768 .f32) : FVec F S4x8192x768 .f32 :=
  subf e (broadcastInDim S4x8192x768 ![0, 1, 2] bcast_S4x8192x1_S4x8192x768_0_1_2 (rowMean e))

/-- The square root of each row's mean squared deviation plus the small constant. -/
def rowStd (e : FVec F S4x8192x768 .f32) : FVec F S4x8192x1 .f32 :=
  Host.sqrt (addf (rowMean (mulf (centred e) (centred e)))
    (broadcastInDim S4x8192x1 ![] bcast_S_S4x8192x1 (constant S_ .f32 0x2B8CBCCC#32)))

/-- The layer norm of an array over its last axis, scaled by `g` and shifted by `bt` along that axis. -/
def normed (e : FVec F S4x8192x768 .f32) (g bt : FVec F S768 .f32) : FVec F S4x8192x768 .f32 :=
  addf
    (mulf (broadcastInDim S4x8192x768 ![0, 1, 2] bcast_S1x1x768_S4x8192x768_0_1_2 (broadcastInDim S1x1x768 ![2] bcast_S768_S1x1x768_2 g))
      (Host.divf (centred e) (broadcastInDim S4x8192x768 ![0, 1, 2] bcast_S4x8192x1_S4x8192x768_0_1_2 (rowStd e))))
    (broadcastInDim S4x8192x768 ![0, 1, 2] bcast_S1x1x768_S4x8192x768_0_1_2 (broadcastInDim S1x1x768 ![2] bcast_S768_S1x1x768_2 bt))

/-- The reference's result array as one function of the four argument arrays, at the extended reals: the
    composed term of the entry function's operations. -/
def result (x : FVec Ideal S4x8192x768 .f32) (pos : FVec Ideal S8192x768 .f32) (g bt : FVec Ideal S768 .f32) :
    FVec Ideal S4x8192x768 .f32 :=
  normed (emb x pos) g bt

/-! ## The run -/

attribute [local irreducible] Host.reduce Host.reduceAdd Host.gather broadcastInDim in
set_option maxRecDepth 8192 in
set_option maxHeartbeats 800000 in
/-- The fold of the operations read at the result buffer is the composed term of the contents at the four
    argument buffers: each operation's result at its own buffer is its function of its operands' contents, and
    at any other buffer what was there. -/
theorem after_result (V : Valuation τ sig (Elt Ideal)) :
    after (ops (F := Ideal)) V (Proc.devRef .tc main_v28)
      = result (V (Proc.devRef .tc main_arg0)) (V (Proc.devRef .tc main_arg1)) (V (Proc.devRef .tc main_arg2))
          (V (Proc.devRef .tc main_arg3)) := by
  after_results_simp
  rfl

theorem after_arg0 (V : Valuation τ sig (Elt Ideal)) :
    after (ops (F := Ideal)) V (Proc.devRef .tc main_arg0) = V (Proc.devRef .tc main_arg0) := by after_results_simp
theorem after_arg1 (V : Valuation τ sig (Elt Ideal)) :
    after (ops (F := Ideal)) V (Proc.devRef .tc main_arg1) = V (Proc.devRef .tc main_arg1) := by after_results_simp
theorem after_arg2 (V : Valuation τ sig (Elt Ideal)) :
    after (ops (F := Ideal)) V (Proc.devRef .tc main_arg2) = V (Proc.devRef .tc main_arg2) := by after_results_simp
theorem after_arg3 (V : Valuation τ sig (Elt Ideal)) :
    after (ops (F := Ideal)) V (Proc.devRef .tc main_arg3) = V (Proc.devRef .tc main_arg3) := by after_results_simp

/-- On every device, from any memory with zero counters: every weakly fair execution of the reference terminates
    with the result buffer at the composed term of the launch contents of the four arguments, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v28).trans (after_result _),
      (h c main_arg0).trans (after_arg0 _), (h c main_arg1).trans (after_arg1 _),
      (h c main_arg2).trans (after_arg2 _), (h c main_arg3).trans (after_arg3 _)⟩)
    (run_seq scopedRefs_eq scopedSems_eq defs main (fun _ => ops) main_eq (fun _ => ops_sub) m ρ)

end Cert.ReferenceIdeal.RefValue

end
-- ==== Proof.ReferenceTake.lean ====
import proofs.«123548_g18691697672695_cont_sun_m_1329_18_alg».proof.Proof.ReferenceRun
import Idealize.ShloMosaic.Lib.ValueIdx
import Idealize.ShloMosaic.Lib.IdealHost
import Idealize.ShloMosaic.Lib.Pipeline.Value

/-! # The gather function at the index vector 0, 1, …, 8191 is the identity

The reference gathers the rows of the position table at the indices `0, 1, …, 8191`. Row number `r` is below
`2³¹`, so as a signed 32-bit word it is `r` itself: not negative (it is kept, not moved up by the row count), at least
`0` and at most `8191` (the mask is one), and clamped into `[0, 8191]` it is still `r` (the gather reads row `r`).
So the gathered and masked table is the table. -/

noncomputable section

namespace Cert.ReferenceIdeal.RefValue

open Cert.ReferenceIdeal Cert.ReferenceIdeal.Gen Idealize.ShloMosaic Idealize.ShloMosaic.ValueIdx

variable {F : FTy → Type} [FloatOps F]

/-! ## Row numbers as signed words -/

/-- A row number, below `8192`, read back as a signed 32-bit word is itself. -/
theorem toInt_row (s : Fin 8192) : (BitVec.ofNat 32 s.val).toInt = (s.val : Int) := by
  have h := s.isLt
  rw [BitVec.toInt_eq_toNat_of_lt (by rw [BitVec.toNat_ofNat]; omega), BitVec.toNat_ofNat]
  omega

/-- A row number is not negative. -/
theorem slt_zero_row (s : Fin 8192) : IntOp.cmpi .slt (BitVec.ofNat 32 s.val) 0#32 = 0#1 := by
  show BitVec.ofBool ((BitVec.ofNat 32 s.val).slt 0#32) = 0#1
  have h : (BitVec.ofNat 32 s.val).slt 0#32 = false := by
    rw [BitVec.slt, toInt_row]; simp
  rw [h]; rfl

/-- A row number is at least zero. -/
theorem sge_zero_row (s : Fin 8192) : IntOp.cmpi .sge (BitVec.ofNat 32 s.val) 0#32 = 1#1 := by
  show BitVec.ofBool ((0#32).sle (BitVec.ofNat 32 s.val)) = 1#1
  have h : (0#32).sle (BitVec.ofNat 32 s.val) = true := by
    rw [BitVec.sle, toInt_row]; simp
  rw [h]; rfl

/-- A row number is at most `8191`. -/
theorem sle_last_row (s : Fin 8192) : IntOp.cmpi .sle (BitVec.ofNat 32 s.val) 8191#32 = 1#1 := by
  show BitVec.ofBool ((BitVec.ofNat 32 s.val).sle 8191#32) = 1#1
  have h8 : (8191#32).toInt = 8191 := by decide
  have h : (BitVec.ofNat 32 s.val).sle 8191#32 = true := by
    rw [BitVec.sle, toInt_row, h8]; have := s.isLt; simp; omega
  rw [h]; rfl

/-! ## The start indices and the mask at the index vector -/

/-- The start index of row `s` is `s`: not negative, so kept. -/
theorem startIdx_rowIdx (s : Fin 8192) (c : Fin 1) : startIdx rowIdx (ix2 s c) = BitVec.ofNat 32 s.val := by
  unfold startIdx
  refine (broadcastInDim_apply _ _ _ (ix2 s c) (ix1 s) (fun a => match a with | ⟨0, _⟩ => rfl)).trans ?_
  show Scalar.select (IntOp.cmpi .slt (BitVec.ofNat 32 s.val) 0#32) _ (BitVec.ofNat 32 s.val) = _
  rw [slt_zero_row, select_zero]

/-- An and-reduction of ones from one is one. -/
theorem hostReduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize List.filter _ _ = l
  induction l with
  | nil => rfl
  | cons n l ih =>
    rw [List.foldl_cons, hx]
    exact ih

/-- Every row of the index vector is in range. -/
theorem inRange_rowIdx (j : S8192.Idx) : inRange rowIdx j = 1#1 := by
  unfold inRange
  refine hostReduce_andi_ones _ _ _ _ (fun i => ?_) (fun _ => rfl) j
  obtain ⟨a, c, rfl⟩ : ∃ (a : Fin 8192) (c : Fin 1), i = ix2 a c := ⟨i 0, i 1, eq_ix2 i⟩
  show IntOp.andi (IntOp.cmpi .sge (startIdx rowIdx (ix2 a c)) 0#32) (IntOp.cmpi .sle (startIdx rowIdx (ix2 a c)) 8191#32) = 1#1
  rw [startIdx_rowIdx, sge_zero_row, sle_last_row]
  rfl

/-! ## The row gather -/

/-- At start indices whose row `s` holds the word `s`, the gather of whole rows reads, at `(s, k)`, the table at
    `(s, k)`: on the row axis the start, `s` clamped into `[0, 8191]`, with no offset (the axis is collapsed); on the
    column axis no start and the offset `k`. -/
theorem gather_row {α : Type} (p : S8192x768.Idx → α) (idx : IVec S8192x1 32)
    (hidx : ∀ (s : Fin 8192) (c : Fin 1), idx (ix2 s c) = BitVec.ofNat 32 s.val) (s : Fin 8192) (k : Fin 768) :
    Host.gather gather_S8192x768_S8192x1_S8192x768_1_0_n_n_0_1_1768 p idx (ix2 s k) = p (ix2 s k) := by
  unfold Host.gather
  congr 1
  funext a
  refine Fin.ext ?_
  match a with
  | ⟨0, _⟩ =>
    show gather_S8192x768_S8192x1_S8192x768_1_0_n_n_0_1_1768.start (ix2 s k) idx 0 + gather_S8192x768_S8192x1_S8192x768_1_0_n_n_0_1_1768.batchCoord (ix2 s k) 0 + gather_S8192x768_S8192x1_S8192x768_1_0_n_n_0_1_1768.offCoord (ix2 s k) 0 = s.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x768_S8192x1_S8192x768_1_0_n_n_0_1_1768.startIndexMap from List.mem_singleton.mpr rfl)]
    have hsi : gather_S8192x768_S8192x1_S8192x768_1_0_n_n_0_1_1768.siIdx (ix2 s k) ⟨List.idxOf (0 : Fin 2) gather_S8192x768_S8192x1_S8192x768_1_0_n_n_0_1_1768.startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi, hidx, toInt_row]
    show min (s.val : Int).toNat (8192 - 1) = s.val
    have := s.isLt
    rw [Int.toNat_natCast]; omega
  | ⟨1, _⟩ =>
    show gather_S8192x768_S8192x1_S8192x768_1_0_n_n_0_1_1768.start (ix2 s k) idx 1 + gather_S8192x768_S8192x1_S8192x768_1_0_n_n_0_1_1768.batchCoord (ix2 s k) 1 + gather_S8192x768_S8192x1_S8192x768_1_0_n_n_0_1_1768.offCoord (ix2 s k) 1 = k.val
    have hst : gather_S8192x768_S8192x1_S8192x768_1_0_n_n_0_1_1768.start (ix2 s k) idx 1 = 0 := by
      unfold GatherDims.start
      exact dif_neg (show (1 : Fin 2) ∉ gather_S8192x768_S8192x1_S8192x768_1_0_n_n_0_1_1768.startIndexMap by decide)
    have hoff : gather_S8192x768_S8192x1_S8192x768_1_0_n_n_0_1_1768.offCoord (ix2 s k) 1 = k.val := by
      unfold GatherDims.offCoord
      rw [dif_pos (show (1 : Fin 2) ∈ gather_S8192x768_S8192x1_S8192x768_1_0_n_n_0_1_1768.sKept by decide)]
      rfl
    rw [hst, GatherDims.batchCoord_eq_zero _ _ _ List.not_mem_nil, hoff, Nat.zero_add]

/-! ## The gather function at the index vector -/

/-- Gathering rows `0, 1, …, 8191` of a table of 8192 rows gives the table. -/
theorem take_rowIdx (p : FVec F S8192x768 .f32) : take p rowIdx = p := by
  funext j
  obtain ⟨s, k, rfl⟩ : ∃ (s : Fin 8192) (k : Fin 768), j = ix2 s k := ⟨j 0, j 1, eq_ix2 j⟩
  unfold take
  have h1 : broadcastInDim S8192x768 ![0] bcast_S8192_S8192x768_0 (inRange rowIdx) (ix2 s k) = 1#1 :=
    (broadcastInDim_apply _ _ _ (ix2 s k) (ix1 s) (fun a => match a with | ⟨0, _⟩ => rfl)).trans (inRange_rowIdx _)
  rw [select_apply, h1, select_one]
  exact gather_row p _ startIdx_rowIdx s k

end Cert.ReferenceIdeal.RefValue

end
-- ==== Proof.ReferenceValue.lean ====
import proofs.«123548_g18691697672695_cont_sun_m_1329_18_alg».proof.Proof.ReferenceTake
import proofs.«123548_g18691697672695_cont_sun_m_1329_18_alg».proof.Proof.LayerNormRow
import Idealize.ShloMosaic.PureOps.Ideal.Laws
import Idealize.ShloMosaic.Lib.IdealHost

/-! # The reference's result read at an index

At the extended reals each operation of the reference is exact, so its result at `(b, s, h)` is a closed expression
of row `(b, s)` of the embedding sum: with `e k = pos (s, k) + x (b, s, k)`, the mean `(Σ_k e k) / 768`, the
deviation `e h - mean`, the mean squared deviation, and the result
`g h · (deviation / sqrt (mean squared deviation + ε)) + bt h`. Each broadcast reads one index of its operand, each
sum over the last axis (from the float zero) is the finite sum over that axis, and the gathered position table is the
table itself. -/

noncomputable section

namespace Cert.ReferenceIdeal.RefValue

open Idealize.ShloMosaic Idealize.ShloMosaic.TcCoe Idealize.SL.Sem Idealize.ShloMosaic.ValueIdx Cert.ReferenceIdeal
open Cert.ReferenceIdeal.Gen Cert.LayerNormRow
open scoped BigOperators

/-- The embedding sum at `(b, s, k)`: the table's row `s` (the gather at `0, 1, …` is the identity, and the two
    broadcasts repeat it over the batch) plus the input. -/
theorem emb_apply (x : FVec Ideal S4x8192x768 .f32) (pos : FVec Ideal S8192x768 .f32) (b : Fin 4) (s : Fin 8192)
    (k : Fin 768) : emb x pos (ix3 b s k) = pos (ix2 s k) + x (ix3 b s k) := by
  unfold emb
  rw [take_rowIdx, addf_apply]
  congr 1
  refine (broadcastInDim_apply _ _ _ (ix3 b s k) (ix3 (0 : Fin 1) s k) (fun a => match a with | ⟨0, _⟩ => rfl | ⟨1, _⟩ => rfl | ⟨2, _⟩ => rfl)).trans ?_
  exact broadcastInDim_apply _ _ _ (ix3 (0 : Fin 1) s k) (ix2 s k) (fun a => match a with | ⟨0, _⟩ => rfl | ⟨1, _⟩ => rfl)

/-- The host sum over the last axis from the float zero, at `(b, s)`: the sum of row `(b, s)`. -/
theorem rowSum_apply (e : FVec Ideal S4x8192x768 .f32) (b : Fin 4) (s : Fin 8192) :
    Host.reduceAdd e (constant (F := Ideal) S_ .f32 0x00000000#32) reducesTo_S4x8192x768_S4x8192_d2 h_S_ (ix2 b s)
      = ∑ k : Fin 768, e (ix3 b s k) := by
  have hR : S4x8192x768.Reduces [2] S4x8192 := by decide
  rw [hostReduceAdd_apply, Ideal.hostReduceAdd_single _ hR]
  show Ideal.ofBits .f32 0x00000000#32 + ∑ k : Fin 768, e (hR.lift (ix2 b s) k) = _
  rw [Ideal.ofBits_zero_f32, zero_add]
  refine Finset.sum_congr rfl fun k _ => congrArg e ?_
  funext a
  refine Fin.ext ?_
  match a with
  | ⟨0, _⟩ => rfl
  | ⟨1, _⟩ => rfl
  | ⟨2, _⟩ => rfl

/-- The row mean at `(b, s, ·)`. -/
theorem rowMean_apply (e : FVec Ideal S4x8192x768 .f32) (b : Fin 4) (s : Fin 8192) (c : Fin 1) :
    rowMean e (ix3 b s c) = mean (fun k => e (ix3 b s k)) := by
  unfold rowMean mean width
  rw [hostDivf_apply]
  congr 1
  exact (broadcastInDim_apply _ _ _ (ix3 b s c) (ix2 b s) (fun a => match a with | ⟨0, _⟩ => rfl | ⟨1, _⟩ => rfl)).trans (rowSum_apply e b s)

/-- An entry minus its row's mean. -/
theorem centred_apply (e : FVec Ideal S4x8192x768 .f32) (b : Fin 4) (s : Fin 8192) (h : Fin 768) :
    centred e (ix3 b s h) = dev (fun k => e (ix3 b s k)) h := by
  unfold centred dev
  rw [subf_apply]
  congr 1
  exact (broadcastInDim_apply _ _ _ (ix3 b s h) (ix3 b s (0 : Fin 1)) (fun a => match a with | ⟨0, _⟩ => rfl | ⟨1, _⟩ => rfl | ⟨2, _⟩ => rfl)).trans (rowMean_apply e b s 0)

/-- The square root of the row's mean squared deviation plus the small constant. -/
theorem rowStd_apply (e : FVec Ideal S4x8192x768 .f32) (b : Fin 4) (s : Fin 8192) (c : Fin 1) :
    rowStd e (ix3 b s c) = Ideal.sqrt (var (fun k => e (ix3 b s k)) + eps) := by
  have hv : rowMean (mulf (centred e) (centred e)) (ix3 b s c) = var (fun k => e (ix3 b s k)) := by
    rw [rowMean_apply]
    show mean _ = mean (fun k => dev (fun k => e (ix3 b s k)) k * dev (fun k => e (ix3 b s k)) k)
    congr 1
    funext k
    rw [mulf_apply, centred_apply]
  unfold rowStd
  show Ideal.sqrt (rowMean (mulf (centred e) (centred e)) (ix3 b s c) + Ideal.ofBits .f32 0x2B8CBCCC#32) = _
  rw [hv]
  rfl

/-- The layer norm at `(b, s, h)`. -/
theorem normed_apply (e : FVec Ideal S4x8192x768 .f32) (g bt : FVec Ideal S768 .f32) (b : Fin 4) (s : Fin 8192)
    (h : Fin 768) :
    normed e g bt (ix3 b s h) = bySqrt (fun k => e (ix3 b s k)) (g (ix1 h)) (bt (ix1 h)) h := by
  have hg : ∀ v : FVec Ideal S768 .f32,
      broadcastInDim S4x8192x768 ![0, 1, 2] bcast_S1x1x768_S4x8192x768_0_1_2 (broadcastInDim S1x1x768 ![2] bcast_S768_S1x1x768_2 v) (ix3 b s h)
        = v (ix1 h) := fun v =>
    (broadcastInDim_apply _ _ _ (ix3 b s h) (ix3 (0 : Fin 1) (0 : Fin 1) h) (fun a => match a with | ⟨0, _⟩ => rfl | ⟨1, _⟩ => rfl | ⟨2, _⟩ => rfl)).trans
      (broadcastInDim_apply _ _ _ (ix3 (0 : Fin 1) (0 : Fin 1) h) (ix1 h) (fun a => match a with | ⟨0, _⟩ => rfl))
  have hs : broadcastInDim S4x8192x768 ![0, 1, 2] bcast_S4x8192x1_S4x8192x768_0_1_2 (rowStd e) (ix3 b s h)
      = Ideal.sqrt (var (fun k => e (ix3 b s k)) + eps) :=
    (broadcastInDim_apply _ _ _ (ix3 b s h) (ix3 b s (0 : Fin 1)) (fun a => match a with | ⟨0, _⟩ => rfl | ⟨1, _⟩ => rfl | ⟨2, _⟩ => rfl)).trans (rowStd_apply e b s 0)
  unfold normed bySqrt
  rw [addf_apply, mulf_apply, hostDivf_apply, centred_apply, hg g, hg bt, hs]

/-- The reference's result at `(b, s, h)`: the layer norm of row `(b, s)` of the embedding sum, scaled and shifted. -/
theorem result_apply (x : FVec Ideal S4x8192x768 .f32) (pos : FVec Ideal S8192x768 .f32) (g bt : FVec Ideal S768 .f32)
    (b : Fin 4) (s : Fin 8192) (h : Fin 768) :
    result x pos g bt (ix3 b s h)
      = Cert.LayerNormRow.bySqrt (fun k : Fin 768 => pos (ix2 s k) + x (ix3 b s k)) (g (ix1 h)) (bt (ix1 h)) h := by
  have he : (fun k : Fin 768 => emb x pos (ix3 b s k)) = fun k : Fin 768 => pos (ix2 s k) + x (ix3 b s k) :=
    funext fun k => emb_apply x pos b s k
  unfold result
  rw [normed_apply, he]

end Cert.ReferenceIdeal.RefValue

end
-- ==== Proof.SameResult.lean ====
/-
  The kernel program and the reference compute one function of the four arguments.

  Entry (b, s, h) of either result is the layer norm of the row e = x[b, s, ·] + pos[s, ·] at h, scaled by γ[h] and
  shifted by β[h]. The kernel forms the row as x + pos and scales the deviation by rsqrt (var e + ε); the reference forms
  it as pos + x and divides the deviation by sqrt (var e + ε). Addition commutes, and the two spellings of the layer norm
  agree on every row of extended reals because var e + ε is positive.
-/
import proofs.«123548_g18691697672695_cont_sun_m_1329_18_alg».proof.Proof.KernelHost
import proofs.«123548_g18691697672695_cont_sun_m_1329_18_alg».proof.Proof.ReferenceValue

noncomputable section

namespace Cert.SameResult

open Idealize.ShloMosaic Idealize.ShloMosaic.ValueIdx

/-- The two results are the same array, whatever the arguments. -/
theorem result_eq (x : (⟨3, ![4, 8192, 768]⟩ : Shape).Idx → EReal) (pos : (⟨2, ![8192, 768]⟩ : Shape).Idx → EReal)
    (g bt : (⟨1, ![768]⟩ : Shape).Idx → EReal) :
    Cert.ReferenceIdeal.RefValue.result x pos g bt = Cert.KernelIdeal.RunValue.result x pos g bt := by
  funext i
  obtain ⟨b, s, h, rfl⟩ : ∃ (b : Fin 4) (s : Fin 8192) (h : Fin 768), i = ix3 b s h := ⟨i 0, i 1, i 2, eq_ix3 i⟩
  rw [Cert.ReferenceIdeal.RefValue.result_apply, Cert.KernelIdeal.RunValue.result_apply,
    Cert.LayerNormRow.byRsqrt_eq_bySqrt]
  exact congrArg (fun e : Fin 768 → EReal => Cert.LayerNormRow.bySqrt e (g (ix1 h)) (bt (ix1 h)) h)
    (funext fun k => add_comm _ _)

end Cert.SameResult

end
-- ==== Proof.lean ====
/-
  The certificate's five claims.

  Both word-level and idealized kernel programs run, fault-free, with their arguments unchanged: the frames of the two
  printed kernel programs. The reference's frame is its run with the result forgotten. The idealization rewrote nothing,
  so there is nothing to preserve. And at the ideal values the kernel program's result and the reference's are one
  function of the four arguments (the layer norm of each row of x + pos, in two spellings that agree on the extended reals).
-/
import proofs.«123548_g18691697672695_cont_sun_m_1329_18_alg».proof.Defs
import proofs.«123548_g18691697672695_cont_sun_m_1329_18_alg».proof.Proof.Gen.Kernel
import proofs.«123548_g18691697672695_cont_sun_m_1329_18_alg».proof.Proof.Gen.Kernel.Skeleton
import proofs.«123548_g18691697672695_cont_sun_m_1329_18_alg».proof.Proof.Gen.Kernel.Launch
import proofs.«123548_g18691697672695_cont_sun_m_1329_18_alg».proof.Proof.Gen.Kernel.Points
import proofs.«123548_g18691697672695_cont_sun_m_1329_18_alg».proof.Proof.Gen.Kernel.Frame
import proofs.«123548_g18691697672695_cont_sun_m_1329_18_alg».proof.Proof.Gen.KernelIdeal
import proofs.«123548_g18691697672695_cont_sun_m_1329_18_alg».proof.Proof.Gen.KernelIdeal.Skeleton
import proofs.«123548_g18691697672695_cont_sun_m_1329_18_alg».proof.Proof.Gen.KernelIdeal.Launch
import proofs.«123548_g18691697672695_cont_sun_m_1329_18_alg».proof.Proof.Gen.KernelIdeal.Points
import proofs.«123548_g18691697672695_cont_sun_m_1329_18_alg».proof.Proof.Gen.KernelIdeal.Frame
import proofs.«123548_g18691697672695_cont_sun_m_1329_18_alg».proof.Proof.Gen.ReferenceIdeal
import proofs.«123548_g18691697672695_cont_sun_m_1329_18_alg».proof.Proof.Gen.Pre_finite_inputs
import proofs.«123548_g18691697672695_cont_sun_m_1329_18_alg».proof.Proof.SameResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the arguments the two idealized programs end with the same result array. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact Cert.SameResult.result_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
